-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x1024x1024 : Shape := ⟨3, ![16, 1024, 1024]⟩
abbrev S16x1024 : Shape := ⟨2, ![16, 1024]⟩
abbrev S1024x1024 : Shape := ⟨2, ![1024, 1024]⟩
abbrev S_ : Shape := ⟨0, ![]⟩

class Facts : Prop where
  bcast_S_S16x1024x1024 : S_.BroadcastsInDim S16x1024x1024 (![] : Fin 0 → Fin S16x1024x1024.rank)
  reducesTo_S16x1024x1024_S_d0_1_2 : S16x1024x1024.ReducesTo [0, 1, 2] S_
  h_S_ : 0 < S_.numel
  bcast_S_S16x1024 : S_.BroadcastsInDim S16x1024 (![] : Fin 0 → Fin S16x1024.rank)
  reducesTo_S16x1024_S_d0_1 : S16x1024.ReducesTo [0, 1] S_
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_arg4 : FVec F S1024x1024 .f32) (main_v13 : IVec S_ 1) (main_v16 : IVec S16x1024 1) : IVec S_ 1 :=
  let main_c_5 : IVec S_ 1 := constantI S_ 1 1#1
  let main_v17 : IVec S_ 1 := (fun x v => Host.reduce IntOp.andi x v reducesTo_S16x1024_S_d0_1 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  main_v23

def fn {F : FTy → Type} [FloatOps F] (main_arg0 : FVec F S16x1024x1024 .f32) (main_arg1 : FVec F S16x1024x1024 .f32) (main_arg2 : FVec F S16x1024x1024 .f32) (main_arg3 : FVec F S16x1024 .f32) (main_arg4 : FVec F S1024x1024 .f32) : IVec S_ 1 :=
  let main_v0 : FVec F S16x1024x1024 .f32 := Host.absf main_arg0
  let main_cst : FVec F S_ .f32 := constant S_ .f32 0x7F800000#32
  let main_v1 : FVec F S16x1024x1024 .f32 := broadcastInDim S16x1024x1024 ![] bcast_S_S16x1024x1024 main_cst
  let main_v2 : IVec S16x1024x1024 1 := cmpf .olt main_v0 main_v1
  let main_c : IVec S_ 1 := constantI S_ 1 1#1
  let main_v3 : IVec S_ 1 := (fun x v => Host.reduce IntOp.andi x v reducesTo_S16x1024x1024_S_d0_1_2 h_S_) main_v2 main_c
  let main_v4 : FVec F S16x1024x1024 .f32 := Host.absf main_arg1
  let main_cst_0 : FVec F S_ .f32 := constant S_ .f32 0x7F800000#32
  let main_v5 : FVec F S16x1024x1024 .f32 := broadcastInDim S16x1024x1024 ![] bcast_S_S16x1024x1024 main_cst_0
  let main_v6 : IVec S16x1024x1024 1 := cmpf .olt main_v4 main_v5
  let main_c_1 : IVec S_ 1 := constantI S_ 1 1#1
  let main_v7 : IVec S_ 1 := (fun x v => Host.reduce IntOp.andi x v reducesTo_S16x1024x1024_S_d0_1_2 h_S_) main_v6 main_c_1
  let main_v8 : IVec S_ 1 := andi main_v3 main_v7
  let main_v9 : FVec F S16x1024x1024 .f32 := Host.absf main_arg2
  let main_cst_2 : FVec F S_ .f32 := constant S_ .f32 0x7F800000#32
  let main_v10 : FVec F S16x1024x1024 .f32 := broadcastInDim S16x1024x1024 ![] bcast_S_S16x1024x1024 main_cst_2
  let main_v11 : IVec S16x1024x1024 1 := cmpf .olt main_v9 main_v10
  let main_c_3 : IVec S_ 1 := constantI S_ 1 1#1
  let main_v12 : IVec S_ 1 := (fun x v => Host.reduce IntOp.andi x v reducesTo_S16x1024x1024_S_d0_1_2 h_S_) main_v11 main_c_3
  let main_v13 : IVec S_ 1 := andi main_v8 main_v12
  let main_v14 : FVec F S16x1024 .f32 := Host.absf main_arg3
  let main_cst_4 : FVec F S_ .f32 := constant S_ .f32 0x7F800000#32
  let main_v15 : FVec F S16x1024 .f32 := broadcastInDim S16x1024 ![] bcast_S_S16x1024 main_cst_4
  let main_v16 : IVec S16x1024 1 := cmpf .olt main_v14 main_v15
  fn_part1 (F := F) main_arg4 main_v13 main_v16
-- ==== Kernel.lean ====
abbrev S16x1024x1024 : Shape := ⟨3, ![16, 1024, 1024]⟩
abbrev S16x1024 : Shape := ⟨2, ![16, 1024]⟩
abbrev S1024x1024 : Shape := ⟨2, ![1024, 1024]⟩
abbrev S16x1x1024 : Shape := ⟨3, ![16, 1, 1024]⟩
abbrev S1x1024x1024 : Shape := ⟨3, ![1, 1024, 1024]⟩
abbrev S1x1x1024 : Shape := ⟨3, ![1, 1, 1024]⟩
abbrev S1x1024 : Shape := ⟨2, ![1, 1024]⟩
abbrev S1024 : Shape := ⟨1, ![1024]⟩

abbrev nBuf : Space → Nat
  | .hbm => 11
  | .vmem => 10
  | .smem => 0
  | _ => 0

abbrev bufTy : (tb : Table) → Fin (tcTables nBuf tb) → BufTy
  | .hbm, ⟨0, _⟩ => ⟨S16x1024x1024, .f32⟩
  | .hbm, ⟨1, _⟩ => ⟨S16x1024x1024, .f32⟩
  | .hbm, ⟨2, _⟩ => ⟨S16x1024x1024, .f32⟩
  | .hbm, ⟨3, _⟩ => ⟨S16x1024, .f32⟩
  | .hbm, ⟨4, _⟩ => ⟨S1024x1024, .f32⟩
  | .hbm, ⟨5, _⟩ => ⟨S16x1024x1024, .bf16⟩
  | .hbm, ⟨6, _⟩ => ⟨S16x1024x1024, .bf16⟩
  | .hbm, ⟨7, _⟩ => ⟨S16x1024x1024, .bf16⟩
  | .hbm, ⟨8, _⟩ => ⟨S1024x1024, .bf16⟩
  | .hbm, ⟨9, _⟩ => ⟨S16x1x1024, .f32⟩
  | .hbm, ⟨10, _⟩ => ⟨S16x1024x1024, .f32⟩
  | .local _ .vmem, ⟨0, _⟩ => ⟨S1x1024x1024, .bf16⟩
  | .local _ .vmem, ⟨1, _⟩ => ⟨S1x1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1x1x1024, .f32⟩
  | .local _ .vmem, ⟨7, _⟩ => ⟨S1x1x1024, .f32⟩
  | .local _ .vmem, ⟨8, _⟩ => ⟨S1024x1024, .bf16⟩
  | .local _ .vmem, ⟨9, _⟩ => ⟨S1x1024x1024, .f32⟩
  | _, _ => ⟨S16x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

class Facts₀ : Prop where
  bitsLt_bf16_f32 : FTy.bits .bf16 < FTy.bits .f32
  shapeCasts_S16x1024_S16x1x1024 : S16x1024.ShapeCasts S16x1x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  reduces_S1024x1024_S1024 : S1024x1024.Reduces [0] S1024
  shapeCasts_S1024_S1x1024 : S1024.ShapeCasts S1x1024
  broadcasts_S1x1024_S1024x1024 : S1x1024.Broadcasts S1024x1024
  shapeCasts_S1024x1024_S1x1024x1024 : S1024x1024.ShapeCasts S1x1024x1024
  dot_S1024x1024_S1024x1024_S1024x1024_1_0_0_1_n_n_wf : DotDims.WF S1024x1024 S1024x1024 S1024x1024 [1] [0] [0] [1] [] []
  dot_S1024x1024_S1024x1024_S1024x1024_1_1_0_0_n_n_wf : DotDims.WF S1024x1024 S1024x1024 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1024.size a ≤ S16x1024x1024.size a
  hwx0_0 : ∀ i : grid0.Coords, EltTy.bits .bf16 = 32 ∨ (Rect.block (s := S16x1024x1024) S1x1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x1024.size a ≤ S16x1024x1024.size a
  hwx0_1 : ∀ i : grid0.Coords, EltTy.bits .bf16 = 32 ∨ (Rect.block (s := S16x1024x1024) S1x1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x1024.size a ≤ S16x1024x1024.size a
  hwx0_2 : ∀ i : grid0.Coords, EltTy.bits .bf16 = 32 ∨ (Rect.block (s := S16x1024x1024) S1x1024x1024.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1024.size a ≤ S16x1x1024.size a
  hwx0_3 : ∀ i : grid0.Coords, EltTy.bits .f32 = 32 ∨ (Rect.block (s := S16x1x1024) S1x1x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S1024x1024.size a
  hwx0_4 : ∀ i : grid0.Coords, EltTy.bits .bf16 = 32 ∨ (Rect.block (s := S1024x1024) S1024x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1024x1024.size a ≤ S16x1024x1024.size a
  hwx0_5 : ∀ i : grid0.Coords, EltTy.bits .f32 = 32 ∨ (Rect.block (s := S16x1024x1024) S1x1024x1024.size (cc0_transform_5 i) (hinb0_5 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_v0) S1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1024x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1024x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1x1024x1024.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16x1024x1024 : Shape := ⟨3, ![16, 1024, 1024]⟩
abbrev S16x1024 : Shape := ⟨2, ![16, 1024]⟩
abbrev S1024x1024 : Shape := ⟨2, ![1024, 1024]⟩
abbrev S_ : Shape := ⟨0, ![]⟩
abbrev S16x1x1024 : Shape := ⟨3, ![16, 1, 1024]⟩

abbrev nBuf : Space → Nat
  | .hbm => 32
  | .vmem => 0
  | .smem => 0
  | _ => 0

abbrev bufTy : (tb : Table) → Fin (tcTables nBuf tb) → BufTy
  | .hbm, ⟨0, _⟩ => ⟨S16x1024x1024, .f32⟩
  | .hbm, ⟨1, _⟩ => ⟨S16x1024x1024, .f32⟩
  | .hbm, ⟨2, _⟩ => ⟨S16x1024x1024, .f32⟩
  | .hbm, ⟨3, _⟩ => ⟨S16x1024, .f32⟩
  | .hbm, ⟨4, _⟩ => ⟨S1024x1024, .f32⟩
  | .hbm, ⟨5, _⟩ => ⟨S16x1024x1024, .f32⟩
  | .hbm, ⟨6, _⟩ => ⟨S_, .f32⟩
  | .hbm, ⟨7, _⟩ => ⟨S16x1024x1024, .f32⟩
  | .hbm, ⟨8, _⟩ => ⟨S16x1024x1024, .f32⟩
  | .hbm, ⟨9, _⟩ => ⟨S16x1024x1024, .f32⟩
  | .hbm, ⟨10, _⟩ => ⟨S_, .f32⟩
  | .hbm, ⟨11, _⟩ => ⟨S16x1024x1024, .f32⟩
  | .hbm, ⟨12, _⟩ => ⟨S16x1024x1024, .f32⟩
  | .hbm, ⟨13, _⟩ => ⟨S16x1024x1024, .f32⟩
  | .hbm, ⟨14, _⟩ => ⟨S_, .f32⟩
  | .hbm, ⟨15, _⟩ => ⟨S16x1024, .f32⟩
  | .hbm, ⟨16, _⟩ => ⟨S16x1x1024, .f32⟩
  | .hbm, ⟨17, _⟩ => ⟨S16x1024x1024, .f32⟩
  | .hbm, ⟨18, _⟩ => ⟨S16x1024x1024, .f32⟩
  | .hbm, ⟨19, _⟩ => ⟨S16x1024x1024, .f32⟩
  | .hbm, ⟨20, _⟩ => ⟨S16x1x1024, .f32⟩
  | .hbm, ⟨21, _⟩ => ⟨S16x1024x1024, .f32⟩
  | .hbm, ⟨22, _⟩ => ⟨S16x1024x1024, .f32⟩
  | .hbm, ⟨23, _⟩ => ⟨S_, .f32⟩
  | .hbm, ⟨24, _⟩ => ⟨S16x1024, .f32⟩
  | .hbm, ⟨25, _⟩ => ⟨S16x1x1024, .f32⟩
  | .hbm, ⟨26, _⟩ => ⟨S_, .f32⟩
  | .hbm, ⟨27, _⟩ => ⟨S16x1x1024, .f32⟩
  | .hbm, ⟨28, _⟩ => ⟨S16x1x1024, .f32⟩
  | .hbm, ⟨29, _⟩ => ⟨S16x1024x1024, .f32⟩
  | .hbm, ⟨30, _⟩ => ⟨S16x1024x1024, .f32⟩
  | .hbm, ⟨31, _⟩ => ⟨S16x1024x1024, .f32⟩
  | _, _ => ⟨S16x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_cst : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_call1_cst : Ref sig .tc := ⟨.hbm, 10, rfl⟩
abbrev main_call1_v0 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_0 : Ref sig .tc := ⟨.hbm, 23, rfl⟩
abbrev main_v13 : Ref sig .tc := ⟨.hbm, 24, rfl⟩
abbrev main_v14 : Ref sig .tc := ⟨.hbm, 25, rfl⟩
abbrev main_cst_1 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩

abbrev nD : Nat := 1
abbrev τ : Topo := Topo.v7x

variable {F : FTy → Type} [FloatOps F]

class Facts₀ : Prop where
  bcast_S_S16x1024x1024 : S_.BroadcastsInDim S16x1024x1024 (![] : Fin 0 → Fin S16x1024x1024.rank)
  reducesTo_S16x1024x1024_S16x1024_d1 : S16x1024x1024.ReducesTo [1] S16x1024
  h_S_ : 0 < S_.numel
  bcast_S16x1024_S16x1x1024_0_2 : S16x1024.BroadcastsInDim S16x1x1024 (![0, 2] : Fin 2 → Fin S16x1x1024.rank)
  bcast_S16x1x1024_S16x1024x1024_0_1_2 : S16x1x1024.BroadcastsInDim S16x1024x1024 (![0, 1, 2] : Fin 3 → Fin S16x1024x1024.rank)
  bcast_S_S16x1x1024 : S_.BroadcastsInDim S16x1x1024 (![] : Fin 0 → Fin S16x1x1024.rank)
  dot_S16x1024x1024_S1024x1024_S16x1024x1024_2_0_01_1_n_n_wf : DotDims.WF S16x1024x1024 S1024x1024 S16x1024x1024 [2] [0] [0, 1] [1] [] []
  dot_S16x1024x1024_S16x1024x1024_S16x1024x1024_2_2_1_1_0_0_wf : DotDims.WF S16x1024x1024 S16x1024x1024 S16x1024x1024 [2] [2] [1] [1] [0] [0]
  dot_S16x1024x1024_S16x1024x1024_S16x1024x1024_2_1_1_2_0_0_wf : DotDims.WF S16x1024x1024 S16x1024x1024 S16x1024x1024 [2] [1] [1] [2] [0] [0]

variable [Facts₀]

def dot_S16x1024x1024_S1024x1024_S16x1024x1024_2_0_01_1_n_n : DotDims S16x1024x1024 S1024x1024 S16x1024x1024 where
  lhsContracting := [2]
  rhsContracting := [0]
  lhsNonContracting := [0, 1]
  rhsNonContracting := [1]
  lhsBatch := []
  rhsBatch := []
  wf := dot_S16x1024x1024_S1024x1024_S16x1024x1024_2_0_01_1_n_n_wf
def dot_S16x1024x1024_S16x1024x1024_S16x1024x1024_2_2_1_1_0_0 : DotDims S16x1024x1024 S16x1024x1024 S16x1024x1024 where
  lhsContracting := [2]
  rhsContracting := [2]
  lhsNonContracting := [1]
  rhsNonContracting := [1]
  lhsBatch := [0]
  rhsBatch := [0]
  wf := dot_S16x1024x1024_S16x1024x1024_S16x1024x1024_2_2_1_1_0_0_wf
def dot_S16x1024x1024_S16x1024x1024_S16x1024x1024_2_1_1_2_0_0 : DotDims S16x1024x1024 S16x1024x1024 S16x1024x1024 where
  lhsContracting := [2]
  rhsContracting := [1]
  lhsNonContracting := [1]
  rhsNonContracting := [2]
  lhsBatch := [0]
  rhsBatch := [0]
  wf := dot_S16x1024x1024_S16x1024x1024_S16x1024x1024_2_1_1_2_0_0_wf

class Facts : Prop extends Facts₀ where

variable [Facts]
-- ==== Proof.Spec.lean ====
/-
  The mathematics both programs compute, batch by batch, on the extended reals.

  For one batch, with x, y, v, W square matrices of side 1024 and mk a row of 1024 weights:
    proj a W      = max (a · W, 0)                           (a projection followed by a rectifier)
    score i j     = Σ_e proj x W i e · proj y W j e          (query i against key j)
    colMax j      = max over the queries i of score i j      (folded from the word of -∞)
    wexp i j      = exp (score i j - colMax j) · mk j
    denom j       = Σ_i wexp i j + ε                         (ε the f32 word nearest 1e-10)
    alpha i j     = wexp i j / denom j                       (a softmax down each COLUMN j, weighted by mk j)
    out i d       = Σ_j alpha i j · v j d
  The whole result, `whole`, is `out` of batch b's slices at (b, i, d).

  Every float literal stays the word the programs print (`Ideal.ofBits .f32 …`): both programs print the same words, so
  none is ever evaluated.
-/
import Idealize.ShloMosaic.PureOps.Ideal
import Idealize.ShloMosaic.Lib.ValueIdx

noncomputable section

namespace Cert.Spec

open Idealize.ShloMosaic Idealize.ShloMosaic.ValueIdx

/-- A square matrix of side 1024 and a row of 1024 entries, over the extended reals. -/
abbrev Mat : Type := Fin 1024 → Fin 1024 → EReal
abbrev Row : Type := Fin 1024 → EReal

/-- The three float words the programs print: zero, -∞, and the f32 nearest 1e-10. -/
def zeroW : EReal := Ideal.ofBits .f32 0x00000000#32
def negInfW : EReal := Ideal.ofBits .f32 0xFF800000#32
def epsW : EReal := Ideal.ofBits .f32 0x2EDBE6FF#32

/-- `max (a · W, 0)` at (i, e). -/
def proj (a W : Mat) (i e : Fin 1024) : EReal := max (∑ d : Fin 1024, a i d * W d e) zeroW

/-- Query `i` against key `j`: the inner product of the two projected rows. -/
def score (x y W : Mat) (i j : Fin 1024) : EReal := ∑ e : Fin 1024, proj x W i e * proj y W j e

/-- The largest score in column `j`, over all queries. -/
def colMax (x y W : Mat) (j : Fin 1024) : EReal :=
  (Finset.univ : Finset (Fin 1024)).fold max negInfW (fun i => score x y W i j)

/-- The shifted exponential of a score, weighted by its column's mask entry. -/
def wexp (x y W : Mat) (mk : Row) (i j : Fin 1024) : EReal :=
  Ideal.exp (score x y W i j - colMax x y W j) * mk j

/-- Column `j`'s normaliser: the column's sum of weighted exponentials, plus ε. -/
def denom (x y W : Mat) (mk : Row) (j : Fin 1024) : EReal := (∑ i : Fin 1024, wexp x y W mk i j) + epsW

/-- The attention weight of query `i` on key `j`. -/
def alpha (x y W : Mat) (mk : Row) (i j : Fin 1024) : EReal := Ideal.div (wexp x y W mk i j) (denom x y W mk j)

/-- One batch's result at (i, d): the weights of query `i` applied to the values' column `d`. -/
def out (x y v W : Mat) (mk : Row) (i d : Fin 1024) : EReal := ∑ j : Fin 1024, alpha x y W mk i j * v j d

/-- Batch `b` of a stacked `[16, 1024, 1024]` array, a `[1024, 1024]` array as a matrix, and batch `b`'s row of a
    `[16, 1024]` array. -/
def slab (x : (⟨3, ![16, 1024, 1024]⟩ : Shape).Idx → EReal) (b : Fin 16) : Mat := fun i d => x (ix3 b i d)
def mat (W : (⟨2, ![1024, 1024]⟩ : Shape).Idx → EReal) : Mat := fun d e => W (ix2 d e)
def rowOf (mk : (⟨2, ![16, 1024]⟩ : Shape).Idx → EReal) (b : Fin 16) : Row := fun j => mk (ix2 b j)

/-- The whole result array as ONE function of the five argument arrays: at (b, i, d), batch `b`'s `out` at (i, d). -/
def whole (x y v : (⟨3, ![16, 1024, 1024]⟩ : Shape).Idx → EReal) (mk : (⟨2, ![16, 1024]⟩ : Shape).Idx → EReal)
    (W : (⟨2, ![1024, 1024]⟩ : Shape).Idx → EReal) : (⟨3, ![16, 1024, 1024]⟩ : Shape).Idx → EReal :=
  fun p => out (slab x (p 0)) (slab y (p 0)) (slab v (p 0)) (mat W) (rowOf mk (p 0)) (p 1) (p 2)

theorem whole_apply (x y v : (⟨3, ![16, 1024, 1024]⟩ : Shape).Idx → EReal) (mk : (⟨2, ![16, 1024]⟩ : Shape).Idx → EReal)
    (W : (⟨2, ![1024, 1024]⟩ : Shape).Idx → EReal) (b : Fin 16) (i d : Fin 1024) :
    whole x y v mk W (ix3 b i d) = out (slab x b) (slab y b) (slab v b) (mat W) (rowOf mk b) i d := rfl

/-- An index of a rank-3 (rank-2, rank-1) array is the one with its coordinates. -/
theorem idx3_eq {n0 n1 n2 : Nat} (j : (⟨3, ![n0, n1, n2]⟩ : Shape).Idx) (a : Fin n0) (b : Fin n1) (c : Fin n2)
    (h0 : (j 0).val = a.val) (h1 : (j 1).val = b.val) (h2 : (j 2).val = c.val) : j = ix3 a b c :=
  funext fun t => Fin.ext (by match t with | ⟨0, _⟩ => exact h0 | ⟨1, _⟩ => exact h1 | ⟨2, _⟩ => exact h2)

theorem idx2_eq {n0 n1 : Nat} (j : (⟨2, ![n0, n1]⟩ : Shape).Idx) (a : Fin n0) (b : Fin n1)
    (h0 : (j 0).val = a.val) (h1 : (j 1).val = b.val) : j = ix2 a b :=
  funext fun t => Fin.ext (by match t with | ⟨0, _⟩ => exact h0 | ⟨1, _⟩ => exact h1)

theorem idx1_eq {n : Nat} (j : (⟨1, ![n]⟩ : Shape).Idx) (a : Fin n) (h0 : (j 0).val = a.val) : j = ix1 a :=
  funext fun t => Fin.ext (by match t with | ⟨0, _⟩ => exact h0)

end Cert.Spec

end
-- ==== Proof.RefSide.lean ====
/-
  The reference program computes the specification.

  Stage by stage, each array the reference's host operations produce, read at an index (b, ·, ·), is the matching
  quantity of batch b in the specification: the two rectified projections, the scores (a batched contraction over the
  feature axis), each column's maximum over the queries (a fold of max from -∞), the weighted shifted exponentials, each
  column's normaliser (zero plus the column's sum, plus ε), the quotients, and the final batched product with the
  values. The host's sums start from the word of zero, which is the extended real 0; nothing else is evaluated.
-/
import proofs.«128073_j64209761075496_1_alg».proof.Proof.Gen.ReferenceIdeal.Read
import proofs.«128073_j64209761075496_1_alg».proof.Proof.Spec
import Idealize.ShloMosaic.PureOps.Ideal.Laws
import Idealize.ShloMosaic.PureOps.Reduce

noncomputable section

namespace Cert.RefSide

open Cert.ReferenceIdeal Cert.ReferenceIdeal.Gen Cert.ReferenceIdeal.Read Cert.Spec
open Idealize.ShloMosaic Idealize.ShloMosaic.ValueIdx

variable (x y v : (⟨S16x1024x1024, .f32⟩ : BufTy).Contents (Elt Ideal))
variable (mk : (⟨S16x1024, .f32⟩ : BufTy).Contents (Elt Ideal))
variable (W : (⟨S1024x1024, .f32⟩ : BufTy).Contents (Elt Ideal))

/-- The rectified projection of the queries' features. -/
theorem proj_x (b : Fin 16) (i e : Fin 1024) :
    val_main_v1 (F := Ideal) x W (ix3 b i e) = proj (slab x b) (mat W) i e := by
  rw [val_main_v1_apply, val_main_v0_apply, val_main_call0_v0_apply, val_main_call0_cst_apply]
  have hl : ∀ k : Fin 1024, lidx_main_v0 (ix3 b i e) k = ix3 b i k := fun k => idx3_eq _ _ _ _ rfl rfl rfl
  have hr : ∀ k : Fin 1024, ridx_main_v0 (ix3 b i e) k = ix2 k e := fun k => idx2_eq _ _ _ rfl rfl
  simp only [hl, hr]
  rfl

/-- The rectified projection of the keys' features. -/
theorem proj_y (b : Fin 16) (j e : Fin 1024) :
    val_main_v3 (F := Ideal) y W (ix3 b j e) = proj (slab y b) (mat W) j e := by
  rw [val_main_v3_apply, val_main_v2_apply, val_main_call1_v0_apply, val_main_call1_cst_apply]
  have hl : ∀ k : Fin 1024, lidx_main_v2 (ix3 b j e) k = ix3 b j k := fun k => idx3_eq _ _ _ _ rfl rfl rfl
  have hr : ∀ k : Fin 1024, ridx_main_v2 (ix3 b j e) k = ix2 k e := fun k => idx2_eq _ _ _ rfl rfl
  simp only [hl, hr]
  rfl

/-- The scores: query i against key j within batch b. -/
theorem score_eq (b : Fin 16) (i j : Fin 1024) :
    val_main_v4 (F := Ideal) x y W (ix3 b i j) = score (slab x b) (slab y b) (mat W) i j := by
  rw [val_main_v4_apply]
  unfold score
  refine Finset.sum_congr rfl fun k _ => ?_
  rw [show lidx_main_v4 (ix3 b i j) k = ix3 b i k from idx3_eq _ _ _ _ rfl rfl rfl,
    show ridx_main_v4 (ix3 b i j) k = ix3 b j k from idx3_eq _ _ _ _ rfl rfl rfl, proj_x, proj_y]

/-- Each column's maximum over the queries: the host's reduction over the query axis is the fold of max over that
    axis's coordinates, from the initial value's one entry. -/
theorem colMax_eq (b : Fin 16) (j : Fin 1024) :
    val_main_v5 (F := Ideal) x y W (ix2 b j) = colMax (slab x b) (slab y b) (mat W) j := by
  unfold val_main_v5
  rw [Host.reduce_eq_fold_single FloatOps.maximumf _ _ reducesTo_S16x1024x1024_S16x1024_d1
    (by decide : S16x1024x1024.Reduces [1] S16x1024) h_S_ (ix2 b j)]
  unfold colMax
  refine congrArg (fun f => (Finset.univ : Finset (Fin 1024)).fold max negInfW f) (funext fun (i : Fin 1024) => ?_)
  show val_main_v4 (F := Ideal) x y W (Shape.Reduces.lift (by decide : S16x1024x1024.Reduces [1] S16x1024) (ix2 b j) i) = _
  exact (congrArg (val_main_v4 (F := Ideal) x y W) (idx3_eq _ b i j rfl rfl rfl)).trans (score_eq x y W b i j)

/-- The weighted shifted exponentials. -/
theorem wexp_eq (b : Fin 16) (i j : Fin 1024) :
    val_main_v12 (F := Ideal) x y mk W (ix3 b i j) = wexp (slab x b) (slab y b) (mat W) (rowOf mk b) i j := by
  rw [val_main_v12_apply, val_main_v9_apply, val_main_v8_apply, val_main_v7_apply, val_main_v6_apply,
    val_main_v11_apply, val_main_v10_apply,
    show idx_main_v6 (idx_main_v7 (ix3 b i j)) = ix2 b j from idx2_eq _ _ _ rfl rfl,
    show idx_main_v10 (idx_main_v11 (ix3 b i j)) = ix2 b j from idx2_eq _ _ _ rfl rfl,
    score_eq, colMax_eq]
  rfl

/-- Each column's normaliser, read at the one row of the keepdims array. -/
theorem denom_eq (b : Fin 16) (u : Fin 1) (j : Fin 1024) :
    val_main_v16 (F := Ideal) x y mk W (ix3 b u j) = denom (slab x b) (slab y b) (mat W) (rowOf mk b) j := by
  rw [val_main_v16_apply, val_main_v14_apply, val_main_v15_apply, val_main_cst_1_apply,
    show idx_main_v14 (ix3 b u j) = ix2 b j from idx2_eq _ _ _ rfl rfl, val_main_v13_apply, val_main_cst_0_apply]
  have hk : ∀ k : Fin 1024, idx_main_v13 (ix2 b j) k = ix3 b k j := fun k => idx3_eq _ _ _ _ rfl rfl rfl
  simp only [hk, wexp_eq, Ideal.ofBits_def, Ideal.addf_def, Ideal.ofBits_zero_f32, zero_add]
  rfl

/-- The attention weights. -/
theorem alpha_eq (b : Fin 16) (i j : Fin 1024) :
    val_main_v18 (F := Ideal) x y mk W (ix3 b i j) = alpha (slab x b) (slab y b) (mat W) (rowOf mk b) i j := by
  rw [val_main_v18_apply, val_main_v17_apply,
    show idx_main_v17 (ix3 b i j) = ix3 b (0 : Fin 1) j from idx3_eq _ _ _ _ rfl rfl rfl, wexp_eq, denom_eq]
  rfl

/-- THE REFERENCE IS THE SPECIFICATION: its last stage, as a function of the five arguments, is `whole`. -/
theorem ref_eq : val_main_v19 (F := Ideal) x y v mk W = whole x y v mk W := by
  funext p
  obtain ⟨b, i, d, rfl⟩ : ∃ (b : Fin 16) (i d : Fin 1024), p = ix3 b i d := ⟨p 0, p 1, p 2, eq_ix3 p⟩
  rw [whole_apply, val_main_v19_apply]
  unfold out
  refine Finset.sum_congr rfl fun k _ => ?_
  rw [show lidx_main_v19 (ix3 b i d) k = ix3 b i k from idx3_eq _ _ _ _ rfl rfl rfl,
    show ridx_main_v19 (ix3 b i d) k = ix3 b k d from idx3_eq _ _ _ _ rfl rfl rfl, alpha_eq]
  rfl

end Cert.RefSide

end
-- ==== Proof.KerStages.lean ====
/-
  The kernel body's value, stage by stage.

  The body at one grid point is a chain of seven vector stages over the blocks it loads (W; batch b's x, y and values;
  batch b's mask row): a rectified projection (twice), the scores (a product contracting the second axis of BOTH
  factors), the column maxima (a reduction down the rows, re-laid as a row and spread back over the rows), the weighted
  shifted exponentials, the column normalisers (a sum down the rows, plus ε), the quotients, and the last product.
  Here each stage is named, the body's value is shown to be their composition, and each is read at an index:
  a product into a zero accumulator is the plain sum over the contracted coordinate; a reduction down the rows is a
  fold (of max) or a sum over the row number; a change of float format is the identity on the extended reals.
-/
import proofs.«128073_j64209761075496_1_alg».proof.Proof.Gen.KernelIdeal.Skeleton
import proofs.«128073_j64209761075496_1_alg».proof.Proof.Spec
import Idealize.ShloMosaic.PureOps.Ideal.Laws
import Idealize.ShloMosaic.PureOps.Reduce
import Idealize.ShloMosaic.Lib.ValueLayout
import Idealize.ShloMosaic.Lib.Pipeline.Value

noncomputable section

namespace Cert.KerStages

open Cert.KernelIdeal Cert.KernelIdeal.Gen Cert.Spec
open Idealize.ShloMosaic Idealize.ShloMosaic.ValueIdx

/-! ## The stages -/

/-- `max (a · W, 0)`, narrowed to bf16 (the identity on the extended reals). -/
def stProj (W a : FVec Ideal S1024x1024 .bf16) : FVec Ideal S1024x1024 .bf16 :=
  truncf .bf16 (maximumf (matmul dot_S1024x1024_S1024x1024_S1024x1024_1_0_0_1_n_n none a W (constant (F := Ideal) S1024x1024 .f32 0x00000000#32))
    (broadcast S1024x1024 (Scalar.ofBits (F := Ideal) .f32 0x00000000#32))) bitsLt_bf16_f32

/-- The scores: the product of the two projections contracting the feature axis of both. -/
def stScore (sx sy : FVec Ideal S1024x1024 .bf16) : FVec Ideal S1024x1024 .f32 :=
  matmul dot_S1024x1024_S1024x1024_S1024x1024_1_1_0_0_n_n none sx sy (constant (F := Ideal) S1024x1024 .f32 0x00000000#32)

/-- The column maxima, as a row. -/
def stMax (s : FVec Ideal S1024x1024 .f32) : FVec Ideal S1x1024 .f32 :=
  shapeCast S1x1024 (multiReduction .maximumf [0] S1024 s 0xFF800000#32 reduces_S1024x1024_S1024 (.inl rfl) rfl) shapeCasts_S1024_S1x1024

/-- The weighted shifted exponentials. -/
def stExp (s : FVec Ideal S1024x1024 .f32) (m mk : FVec Ideal S1x1024 .f32) : FVec Ideal S1024x1024 .f32 :=
  mulf (exp (subf s (broadcastTo S1024x1024 m broadcasts_S1x1024_S1024x1024))) (broadcastTo S1024x1024 mk broadcasts_S1x1024_S1024x1024)

/-- The column normalisers, as a row. -/
def stDen (e : FVec Ideal S1024x1024 .f32) : FVec Ideal S1x1024 .f32 :=
  addf (shapeCast S1x1024 (multiReduction .add [0] S1024 e 0x00000000#32 reduces_S1024x1024_S1024 (.inl rfl) rfl) shapeCasts_S1024_S1x1024)
    (broadcast S1x1024 (Scalar.ofBits (F := Ideal) .f32 0x2EDBE6FF#32))

/-- The attention weights, narrowed to bf16. -/
def stAlpha (e : FVec Ideal S1024x1024 .f32) (den : FVec Ideal S1x1024 .f32) : FVec Ideal S1024x1024 .bf16 :=
  truncf .bf16 (divf e (broadcastTo S1024x1024 den broadcasts_S1x1024_S1024x1024)) bitsLt_bf16_f32

/-- The weights applied to the values. -/
def stOut (al v : FVec Ideal S1024x1024 .bf16) : FVec Ideal S1024x1024 .f32 :=
  matmul dot_S1024x1024_S1024x1024_S1024x1024_1_0_0_1_n_n none al v (constant (F := Ideal) S1024x1024 .f32 0x00000000#32)

/-- THE BODY'S VALUE IS THE COMPOSITION OF THE STAGES over the loaded blocks, each re-laid without its unit axes. -/
theorem pay_eq (P0 : Vec Ideal S1024x1024 .bf16) (P1 P2 P3 : Vec Ideal S1x1024x1024 .bf16) (P4 : Vec Ideal S1x1x1024 .f32) :
    k0_pay2 (F := Ideal) P0 P1 P2 P3 P4
      = stOut
          (stAlpha
            (stExp
              (stScore (stProj (shapeCast S1024x1024 P0 shapeCasts_S1024x1024_S1024x1024) (shapeCast S1024x1024 P1 shapeCasts_S1x1024x1024_S1024x1024))
                (stProj (shapeCast S1024x1024 P0 shapeCasts_S1024x1024_S1024x1024) (shapeCast S1024x1024 P2 shapeCasts_S1x1024x1024_S1024x1024)))
              (stMax (stScore (stProj (shapeCast S1024x1024 P0 shapeCasts_S1024x1024_S1024x1024) (shapeCast S1024x1024 P1 shapeCasts_S1x1024x1024_S1024x1024))
                (stProj (shapeCast S1024x1024 P0 shapeCasts_S1024x1024_S1024x1024) (shapeCast S1024x1024 P2 shapeCasts_S1x1024x1024_S1024x1024))))
              (shapeCast S1x1024 P4 shapeCasts_S1x1x1024_S1x1024))
            (stDen
              (stExp
                (stScore (stProj (shapeCast S1024x1024 P0 shapeCasts_S1024x1024_S1024x1024) (shapeCast S1024x1024 P1 shapeCasts_S1x1024x1024_S1024x1024))
                  (stProj (shapeCast S1024x1024 P0 shapeCasts_S1024x1024_S1024x1024) (shapeCast S1024x1024 P2 shapeCasts_S1x1024x1024_S1024x1024)))
                (stMax (stScore (stProj (shapeCast S1024x1024 P0 shapeCasts_S1024x1024_S1024x1024) (shapeCast S1024x1024 P1 shapeCasts_S1x1024x1024_S1024x1024))
                  (stProj (shapeCast S1024x1024 P0 shapeCasts_S1024x1024_S1024x1024) (shapeCast S1024x1024 P2 shapeCasts_S1x1024x1024_S1024x1024))))
                (shapeCast S1x1024 P4 shapeCasts_S1x1x1024_S1x1024))))
          (shapeCast S1024x1024 P3 shapeCasts_S1x1024x1024_S1024x1024) := rfl

/-! ## The two products read at an index -/

/-- A product contracting the left factor's columns with the right factor's rows, into a zero accumulator: at (i, e) the
    sum over k of left (i, k) · right (k, e). -/
theorem matmul_rows_cols {φ₁ φ₂ : FTy} (l : FVec Ideal S1024x1024 φ₁) (r : FVec Ideal S1024x1024 φ₂) (i e : Fin 1024) :
    matmul dot_S1024x1024_S1024x1024_S1024x1024_1_0_0_1_n_n none l r (constant (F := Ideal) S1024x1024 .f32 0x00000000#32) (ix2 i e)
      = ∑ k : Fin 1024, l (ix2 i k) * r (ix2 k e) := by
  show FloatOps.matmul dot_S1024x1024_S1024x1024_S1024x1024_1_0_0_1_n_n none l r (constant (F := Ideal) S1024x1024 .f32 0x00000000#32) (ix2 i e) = _
  rw [Ideal.matmul_constant_zero_apply, ← Equiv.sum_comp (contrEquiv1 dot_S1024x1024_S1024x1024_S1024x1024_1_0_0_1_n_n 1024 rfl rfl).symm]
  refine Finset.sum_congr rfl fun k _ => ?_
  have hk := contrEquiv1_symm_val dot_S1024x1024_S1024x1024_S1024x1024_1_0_0_1_n_n 1024 rfl rfl k
  have el : dot_S1024x1024_S1024x1024_S1024x1024_1_0_0_1_n_n.lhsIdx (ix2 i e) ((contrEquiv1 dot_S1024x1024_S1024x1024_S1024x1024_1_0_0_1_n_n 1024 rfl rfl).symm k) = ix2 i k :=
    idx2_eq _ _ _ (by
      unfold DotDims.lhsIdx
      rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
      rfl) ((dot_S1024x1024_S1024x1024_S1024x1024_1_0_0_1_n_n.lhsIdx_val_of_single rfl _ _).trans hk)
  have er : dot_S1024x1024_S1024x1024_S1024x1024_1_0_0_1_n_n.rhsIdx (ix2 i e) ((contrEquiv1 dot_S1024x1024_S1024x1024_S1024x1024_1_0_0_1_n_n 1024 rfl rfl).symm k) = ix2 k e :=
    idx2_eq _ _ _ ((dot_S1024x1024_S1024x1024_S1024x1024_1_0_0_1_n_n.rhsIdx_val_of_single rfl _ _).trans hk) (by
      unfold DotDims.rhsIdx
      rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
      rfl)
  rw [el, er]

/-- A product contracting the columns of BOTH factors, into a zero accumulator: at (i, j) the sum over k of
    left (i, k) · right (j, k). -/
theorem matmul_rows_rows {φ₁ φ₂ : FTy} (l : FVec Ideal S1024x1024 φ₁) (r : FVec Ideal S1024x1024 φ₂) (i j : Fin 1024) :
    matmul dot_S1024x1024_S1024x1024_S1024x1024_1_1_0_0_n_n none l r (constant (F := Ideal) S1024x1024 .f32 0x00000000#32) (ix2 i j)
      = ∑ k : Fin 1024, l (ix2 i k) * r (ix2 j k) := by
  show FloatOps.matmul dot_S1024x1024_S1024x1024_S1024x1024_1_1_0_0_n_n none l r (constant (F := Ideal) S1024x1024 .f32 0x00000000#32) (ix2 i j) = _
  rw [Ideal.matmul_constant_zero_apply, ← Equiv.sum_comp (contrEquiv1 dot_S1024x1024_S1024x1024_S1024x1024_1_1_0_0_n_n 1024 rfl rfl).symm]
  refine Finset.sum_congr rfl fun k _ => ?_
  have hk := contrEquiv1_symm_val dot_S1024x1024_S1024x1024_S1024x1024_1_1_0_0_n_n 1024 rfl rfl k
  have el : dot_S1024x1024_S1024x1024_S1024x1024_1_1_0_0_n_n.lhsIdx (ix2 i j) ((contrEquiv1 dot_S1024x1024_S1024x1024_S1024x1024_1_1_0_0_n_n 1024 rfl rfl).symm k) = ix2 i k :=
    idx2_eq _ _ _ (by
      unfold DotDims.lhsIdx
      rw [dif_neg (show ¬(0 : Fin S1024x1024.rank) ∈ dot_S1024x1024_S1024x1024_S1024x1024_1_1_0_0_n_n.lhsBatch by decide), dif_pos (show (0 : Fin S1024x1024.rank) ∈ dot_S1024x1024_S1024x1024_S1024x1024_1_1_0_0_n_n.lhsNonContracting by decide)]
      rfl) ((dot_S1024x1024_S1024x1024_S1024x1024_1_1_0_0_n_n.lhsIdx_val_of_single rfl _ _).trans hk)
  have er : dot_S1024x1024_S1024x1024_S1024x1024_1_1_0_0_n_n.rhsIdx (ix2 i j) ((contrEquiv1 dot_S1024x1024_S1024x1024_S1024x1024_1_1_0_0_n_n 1024 rfl rfl).symm k) = ix2 j k :=
    idx2_eq _ _ _ (by
      unfold DotDims.rhsIdx
      rw [dif_neg (show ¬(0 : Fin S1024x1024.rank) ∈ dot_S1024x1024_S1024x1024_S1024x1024_1_1_0_0_n_n.rhsBatch by decide), dif_pos (show (0 : Fin S1024x1024.rank) ∈ dot_S1024x1024_S1024x1024_S1024x1024_1_1_0_0_n_n.rhsNonContracting by decide)]
      rfl) ((dot_S1024x1024_S1024x1024_S1024x1024_1_1_0_0_n_n.rhsIdx_val_of_single rfl _ _).trans hk)
  rw [el, er]

/-! ## The two reductions down the rows, read at a column -/

/-- The maximum down the rows, from the word of -∞: at column j the fold of max over the row number. -/
theorem colmax_apply (s : FVec Ideal S1024x1024 .f32) (hφ : FKind.Formats .f32)
    (hacc : (0xFF800000#32 : BitVec FTy.f32.bits) = FKind.maximumf.neutral .f32 hφ) (j : Fin 1024) :
    multiReduction .maximumf [0] S1024 s 0xFF800000#32 reduces_S1024x1024_S1024 hφ hacc (ix1 j)
      = (Finset.univ : Finset (Fin 1024)).fold max negInfW (fun i => s (ix2 i j)) := by
  refine (Ideal.multiReduction_maximumf_single s 0xFF800000#32 reduces_S1024x1024_S1024 hφ hacc (ix1 j)).trans ?_
  refine congrArg (fun f => (Finset.univ : Finset (Fin 1024)).fold max negInfW f) (funext fun i => ?_)
  show s (Shape.Reduces.lift reduces_S1024x1024_S1024 (ix1 j) i) = s (ix2 i j)
  exact congrArg s (idx2_eq _ _ _ rfl rfl)

/-- The sum down the rows: at column j the sum over the row number. -/
theorem colsum_apply (e : FVec Ideal S1024x1024 .f32) (hφ : FKind.Formats .f32)
    (hacc : (0x00000000#32 : BitVec FTy.f32.bits) = FKind.add.neutral .f32 hφ) (j : Fin 1024) :
    multiReduction .add [0] S1024 e 0x00000000#32 reduces_S1024x1024_S1024 hφ hacc (ix1 j)
      = ∑ i : Fin 1024, e (ix2 i j) := by
  refine (Ideal.multiReduction_add_single e 0x00000000#32 reduces_S1024x1024_S1024 hφ hacc (ix1 j)).trans ?_
  refine Finset.sum_congr rfl fun i _ => ?_
  exact congrArg e (idx2_eq _ _ _ rfl rfl)

/-! ## Each stage at an index -/

theorem stProj_apply (W a : FVec Ideal S1024x1024 .bf16) (i e : Fin 1024) :
    stProj W a (ix2 i e) = proj (mat a) (mat W) i e := by
  show max (matmul dot_S1024x1024_S1024x1024_S1024x1024_1_0_0_1_n_n none a W (constant (F := Ideal) S1024x1024 .f32 0x00000000#32) (ix2 i e)) (Ideal.ofBits .f32 0x00000000#32) = _
  rw [matmul_rows_cols]
  rfl

theorem stScore_apply (sx sy : FVec Ideal S1024x1024 .bf16) (i j : Fin 1024) :
    stScore sx sy (ix2 i j) = ∑ e : Fin 1024, sx (ix2 i e) * sy (ix2 j e) :=
  matmul_rows_rows sx sy i j

theorem stMax_apply (s : FVec Ideal S1024x1024 .f32) (u : Fin 1) (j : Fin 1024) :
    stMax s (ix2 u j) = (Finset.univ : Finset (Fin 1024)).fold max negInfW (fun i => s (ix2 i j)) := by
  unfold stMax
  rw [shapeCast_a_1a_apply]
  exact colmax_apply s _ _ j

theorem stExp_apply (s : FVec Ideal S1024x1024 .f32) (m mk : FVec Ideal S1x1024 .f32) (i j : Fin 1024) :
    stExp s m mk (ix2 i j) = Ideal.exp (s (ix2 i j) - m (ix2 (0 : Fin 1) j)) * mk (ix2 (0 : Fin 1) j) := by
  show Ideal.exp (s (ix2 i j) - broadcastTo S1024x1024 m broadcasts_S1x1024_S1024x1024 (ix2 i j))
      * broadcastTo S1024x1024 mk broadcasts_S1x1024_S1024x1024 (ix2 i j) = _
  rw [broadcastTo_1b_ab_apply, broadcastTo_1b_ab_apply]

theorem stDen_apply (e : FVec Ideal S1024x1024 .f32) (u : Fin 1) (j : Fin 1024) :
    stDen e (ix2 u j) = (∑ i : Fin 1024, e (ix2 i j)) + epsW := by
  show shapeCast S1x1024 (multiReduction .add [0] S1024 e 0x00000000#32 reduces_S1024x1024_S1024 (.inl rfl) rfl) shapeCasts_S1024_S1x1024 (ix2 u j)
      + Ideal.ofBits .f32 0x2EDBE6FF#32 = _
  rw [shapeCast_a_1a_apply]
  exact congrArg (· + epsW) (colsum_apply e _ _ j)

theorem stAlpha_apply (e : FVec Ideal S1024x1024 .f32) (den : FVec Ideal S1x1024 .f32) (i j : Fin 1024) :
    stAlpha e den (ix2 i j) = Ideal.div (e (ix2 i j)) (den (ix2 (0 : Fin 1) j)) := by
  show Ideal.div (e (ix2 i j)) (broadcastTo S1024x1024 den broadcasts_S1x1024_S1024x1024 (ix2 i j)) = _
  rw [broadcastTo_1b_ab_apply]

theorem stOut_apply (al v : FVec Ideal S1024x1024 .bf16) (i d : Fin 1024) :
    stOut al v (ix2 i d) = ∑ j : Fin 1024, al (ix2 i j) * v (ix2 j d) :=
  matmul_rows_cols al v i d

end Cert.KerStages

end
-- ==== Proof.KerValue.lean ====
/-
  The kernel body computes the specification's `out` of the blocks it loads.

  With W, a, b, v the four square matrices the body works on and mk its mask row, the composition of the body's
  stages at (i, d) is `out a b v W mk i d`: each stage, read at an index, is the specification's quantity of the same
  name, the earlier stages entering through the sums and the fold. Then the loaded blocks are put in: each [1, n, n]
  block re-laid as [n, n] reads the block at (0, ·, ·), the [n, n] block of W is itself, and the [1, 1, n] mask block
  re-laid as the row [1, n] reads the block at (0, 0, ·).
-/
import proofs.«128073_j64209761075496_1_alg».proof.Proof.KerStages

noncomputable section

namespace Cert.KerValue

open Cert.KernelIdeal Cert.KernelIdeal.Gen Cert.Spec Cert.KerStages
open Idealize.ShloMosaic Idealize.ShloMosaic.ValueIdx

section Stages

variable (W a b v : FVec Ideal S1024x1024 .bf16) (mk : FVec Ideal S1x1024 .f32)

theorem score_eq (i j : Fin 1024) :
    stScore (stProj W a) (stProj W b) (ix2 i j) = score (mat a) (mat b) (mat W) i j := by
  rw [stScore_apply]
  unfold score
  exact Finset.sum_congr rfl fun e _ => by rw [stProj_apply, stProj_apply]

theorem colMax_eq (u : Fin 1) (j : Fin 1024) :
    stMax (stScore (stProj W a) (stProj W b)) (ix2 u j) = colMax (mat a) (mat b) (mat W) j := by
  rw [stMax_apply]
  unfold colMax
  exact congrArg (fun f => (Finset.univ : Finset (Fin 1024)).fold max negInfW f) (funext fun i => score_eq W a b i j)

theorem wexp_eq (i j : Fin 1024) :
    stExp (stScore (stProj W a) (stProj W b)) (stMax (stScore (stProj W a) (stProj W b))) mk (ix2 i j)
      = wexp (mat a) (mat b) (mat W) (fun j => mk (ix2 (0 : Fin 1) j)) i j := by
  rw [stExp_apply, score_eq, colMax_eq]
  rfl

theorem denom_eq (u : Fin 1) (j : Fin 1024) :
    stDen (stExp (stScore (stProj W a) (stProj W b)) (stMax (stScore (stProj W a) (stProj W b))) mk) (ix2 u j)
      = denom (mat a) (mat b) (mat W) (fun j => mk (ix2 (0 : Fin 1) j)) j := by
  rw [stDen_apply]
  unfold denom
  exact congrArg (· + epsW) (Finset.sum_congr rfl fun i _ => wexp_eq W a b mk i j)

theorem alpha_eq (i j : Fin 1024) :
    stAlpha (stExp (stScore (stProj W a) (stProj W b)) (stMax (stScore (stProj W a) (stProj W b))) mk)
        (stDen (stExp (stScore (stProj W a) (stProj W b)) (stMax (stScore (stProj W a) (stProj W b))) mk)) (ix2 i j)
      = alpha (mat a) (mat b) (mat W) (fun j => mk (ix2 (0 : Fin 1) j)) i j := by
  rw [stAlpha_apply, wexp_eq, denom_eq]
  rfl

theorem out_eq (i d : Fin 1024) :
    stOut
        (stAlpha (stExp (stScore (stProj W a) (stProj W b)) (stMax (stScore (stProj W a) (stProj W b))) mk)
          (stDen (stExp (stScore (stProj W a) (stProj W b)) (stMax (stScore (stProj W a) (stProj W b))) mk)))
        v (ix2 i d)
      = out (mat a) (mat b) (mat v) (mat W) (fun j => mk (ix2 (0 : Fin 1) j)) i d := by
  rw [stOut_apply]
  unfold out
  exact Finset.sum_congr rfl fun j _ => by rw [alpha_eq]; rfl

end Stages

/-- The body's value at (i, d), over the loaded blocks as variables: the specification's `out` of the blocks read at
    their unit coordinates. -/
theorem pay_apply (P0 : Vec Ideal S1024x1024 .bf16) (P1 P2 P3 : Vec Ideal S1x1024x1024 .bf16) (P4 : Vec Ideal S1x1x1024 .f32)
    (i d : Fin 1024) :
    k0_pay2 (F := Ideal) P0 P1 P2 P3 P4 (ix2 i d)
      = out (fun r k => P1 (ix3 (0 : Fin 1) r k)) (fun r k => P2 (ix3 (0 : Fin 1) r k)) (fun r k => P3 (ix3 (0 : Fin 1) r k))
          (fun r k => P0 (ix2 r k)) (fun k => P4 (ix3 (0 : Fin 1) (0 : Fin 1) k)) i d := by
  rw [pay_eq, out_eq]
  have e0 : mat (shapeCast S1024x1024 P0 shapeCasts_S1024x1024_S1024x1024) = fun r k => P0 (ix2 r k) := by
    rw [shapeCast_self]; rfl
  have e1 : mat (shapeCast S1024x1024 P1 shapeCasts_S1x1024x1024_S1024x1024) = fun r k => P1 (ix3 (0 : Fin 1) r k) :=
    funext fun r => funext fun k => shapeCast_1ab_ab_apply P1 _ r k
  have e2 : mat (shapeCast S1024x1024 P2 shapeCasts_S1x1024x1024_S1024x1024) = fun r k => P2 (ix3 (0 : Fin 1) r k) :=
    funext fun r => funext fun k => shapeCast_1ab_ab_apply P2 _ r k
  have e3 : mat (shapeCast S1024x1024 P3 shapeCasts_S1x1024x1024_S1024x1024) = fun r k => P3 (ix3 (0 : Fin 1) r k) :=
    funext fun r => funext fun k => shapeCast_1ab_ab_apply P3 _ r k
  have e4 : (fun k : Fin 1024 => shapeCast S1x1024 P4 shapeCasts_S1x1x1024_S1x1024 (ix2 (0 : Fin 1) k))
      = fun k => P4 (ix3 (0 : Fin 1) (0 : Fin 1) k) :=
    funext fun k => shapeCast_1ab_ab_apply P4 _ (0 : Fin 1) k
  rw [e0, e1, e2, e3, e4]

end Cert.KerValue

end
-- ==== Proof.Whole.lean ====
/-
  From blocks to the whole result array.

  The grid has one point per batch. At point t the kernel is handed batch t of x, y and values (each narrowed to bf16 by
  a host conversion, the identity on the extended reals), row t of the mask (re-laid by the host as [16, 1, 1024]) and all
  of W, and writes back batch t of the result. So what point t writes is block t of ONE whole-array function of the five
  arguments — the specification's `whole` — and since the sixteen blocks tile the result array, the array ends holding
  `whole` of the arguments.
-/
import proofs.«128073_j64209761075496_1_alg».proof.Proof.Gen.KernelIdeal.Value
import proofs.«128073_j64209761075496_1_alg».proof.Proof.KerValue
import Idealize.ShloMosaic.Lib.Pipeline.Value
import Idealize.ShloMosaic.Lib.StableHlo.Run
import Idealize.ShloMosaic.Lib.ValueLayout
import Idealize.ShloMosaic.Lib.Tactic

noncomputable section

open Idealize.ShloMosaic Idealize.ShloMosaic.TcCoe Idealize.SL.Sem
open Idealize.ShloMosaic.Pipeline (Dat)

namespace Cert.KernelIdeal.Whole

open Cert.KernelIdeal Cert.KernelIdeal.Gen Cert.KernelIdeal.Value Cert.Spec
open Idealize.ShloMosaic.ValueIdx Idealize.ShloMosaic.StableHlo

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl

/-- The result array as one function of the five arguments as launched. -/
abbrev G (c : Dev nD) : S16x1024x1024.Idx → EReal :=
  whole (m ((c : Thread nD τ).loc main_arg0)) (m ((c : Thread nD τ).loc main_arg1)) (m ((c : Thread nD τ).loc main_arg2))
    (m ((c : Thread nD τ).loc main_arg3)) (m ((c : Thread nD τ).loc main_arg4))

/-! ## What the body leaves in the output block, over the input blocks as variables -/

theorem out_block (x0 x1 x2 : Vec Ideal S1x1024x1024 .bf16) (x3 : Vec Ideal S1x1x1024 .f32) (x4 : Vec Ideal S1024x1024 .bf16)
    (u : Fin 1) (i d : Fin 1024) :
    out0_5 x0 x1 x2 x3 x4 (ix3 u i d)
      = out (fun r k => x0 (ix3 (0 : Fin 1) r k)) (fun r k => x1 (ix3 (0 : Fin 1) r k)) (fun r k => x2 (ix3 (0 : Fin 1) r k))
          (fun r k => x4 (ix2 r k)) (fun k => x3 (ix3 (0 : Fin 1) (0 : Fin 1) k)) i d := by
  unfold out0_5
  rw [canon5_eq]
  show k0_pay2 (F := Ideal) (View.ld x4 r0_0) (View.ld x0 r0_1) (View.ld x1 r0_1) (View.ld x2 r0_1) (View.ld x3 r0_2) (ix5_0 (ix3 u i d)) = _
  simp only [View.ld_unit_zero (S := S1024x1024) hz2, View.ld_unit_zero (S := S1x1024x1024) hz3, View.ld_unit_zero (S := S1x1x1024) hz3]
  rw [show ix5_0 (ix3 u i d) = ix2 i d from idx2_eq _ _ _ rfl rfl]
  exact Cert.KerValue.pay_apply x4 x0 x1 x2 x3 i d

/-! ## The windows' arrays as the region finds them: the host conversions and the mask's re-laying -/

theorem V_x (c : Dev nD) : (V m c main_v0 : S16x1024x1024.Idx → EReal) = m ((c : Thread nD τ).loc main_arg0) := by
  dsimp only [Gen.V, Gen.hostOps0]; after_results; rfl

theorem V_y (c : Dev nD) : (V m c main_v1 : S16x1024x1024.Idx → EReal) = m ((c : Thread nD τ).loc main_arg1) := by
  dsimp only [Gen.V, Gen.hostOps0]; after_results; rfl

theorem V_v (c : Dev nD) : (V m c main_v2 : S16x1024x1024.Idx → EReal) = m ((c : Thread nD τ).loc main_arg2) := by
  dsimp only [Gen.V, Gen.hostOps0]; after_results; rfl

theorem V_W (c : Dev nD) : (V m c main_v3 : S1024x1024.Idx → EReal) = m ((c : Thread nD τ).loc main_arg4) := by
  dsimp only [Gen.V, Gen.hostOps0]; after_results; rfl

theorem V_mk (c : Dev nD) : (V m c main_v4 : S16x1x1024.Idx → EReal)
    = shapeCast S16x1x1024 (m ((c : Thread nD τ).loc main_arg3) : S16x1024.Idx → EReal) shapeCasts_S16x1024_S16x1x1024 := by
  dsimp only [Gen.V, Gen.hostOps0]; after_results; rfl

/-! ## The index maps, decided over the sixteen points -/

theorem idx_facts : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 3) = t.val ∧ win0_2.index t (1 : Fin 3) = 0 ∧ win0_2.index t (2 : Fin 3) = 0)
    ∧ (win0_3.index t (0 : Fin 3) = t.val ∧ win0_3.index t (1 : Fin 3) = 0 ∧ win0_3.index t (2 : Fin 3) = 0)
    ∧ (win0_4.index t (0 : Fin 2) = 0 ∧ win0_4.index t (1 : Fin 2) = 0)
    ∧ (win0_5.index t (0 : Fin 3) = t.val ∧ win0_5.index t (1 : Fin 3) = 0 ∧ win0_5.index t (2 : Fin 3) = 0) :=
  (by decide +kernel : ∀ t : Fin grid0.N, _)

/-- A grid point's number is a batch number. -/
theorem lt16 (t : Fin cfg0.N) : t.val < 16 := Nat.lt_of_lt_of_eq t.isLt N_0

def batch (t : Fin cfg0.N) : Fin 16 := ⟨t.val, lt16 t⟩

/-! ## Each input block as entries of the argument arrays -/

/-- A [16, 1024] array re-laid as [16, 1, 1024] reads the array at (b, k). -/
theorem relaid_row (X : S16x1024.Idx → EReal) (b : Fin 16) (u : Fin 1) (k : Fin 1024) :
    shapeCast S16x1x1024 X shapeCasts_S16x1024_S16x1x1024 (ix3 b u k) = X (ix2 b k) :=
  shapeCast_apply X _ _ _ (by
    have hu : u.val = 0 := by omega
    rw [Shape.rowMajor_val_two, Shape.rowMajor_val_three]
    show b.val * 1024 + k.val = (b.val * 1 + u.val) * 1024 + k.val
    rw [hu]; omega)

/-- Point t's block of x is batch t of x. -/
theorem iblk_x (c : Dev nD) (t : Fin cfg0.N) (r k : Fin 1024) :
    (iblk m c 0 t : Vec Ideal S1x1024x1024 .bf16) (ix3 (0 : Fin 1) r k)
      = (m ((c : Thread nD τ).loc main_arg0) : S16x1024x1024.Idx → EReal) (ix3 (batch t) r k) := by
  obtain ⟨⟨h0, h1, h2⟩, -⟩ := idx_facts t
  unfold iblk
  rw [View.read_apply]
  show (V m c main_v0 : S16x1024x1024.Idx → EReal) _ = _
  rw [V_x]
  refine congrArg _ (idx3_eq _ _ _ _ ?_ ?_ ?_)
  · show win0_0.index t (0 : Fin 3) * 1 + 1 * 0 = t.val; omega
  · show win0_0.index t (1 : Fin 3) * 1024 + 1 * r.val = r.val; omega
  · show win0_0.index t (2 : Fin 3) * 1024 + 1 * k.val = k.val; omega

/-- Point t's block of y is batch t of y. -/
theorem iblk_y (c : Dev nD) (t : Fin cfg0.N) (r k : Fin 1024) :
    (iblk m c 1 t : Vec Ideal S1x1024x1024 .bf16) (ix3 (0 : Fin 1) r k)
      = (m ((c : Thread nD τ).loc main_arg1) : S16x1024x1024.Idx → EReal) (ix3 (batch t) r k) := by
  obtain ⟨-, ⟨h0, h1, h2⟩, -⟩ := idx_facts t
  unfold iblk
  rw [View.read_apply]
  show (V m c main_v1 : S16x1024x1024.Idx → EReal) _ = _
  rw [V_y]
  refine congrArg _ (idx3_eq _ _ _ _ ?_ ?_ ?_)
  · show win0_1.index t (0 : Fin 3) * 1 + 1 * 0 = t.val; omega
  · show win0_1.index t (1 : Fin 3) * 1024 + 1 * r.val = r.val; omega
  · show win0_1.index t (2 : Fin 3) * 1024 + 1 * k.val = k.val; omega

/-- Point t's block of the values is batch t of the values. -/
theorem iblk_v (c : Dev nD) (t : Fin cfg0.N) (r k : Fin 1024) :
    (iblk m c 2 t : Vec Ideal S1x1024x1024 .bf16) (ix3 (0 : Fin 1) r k)
      = (m ((c : Thread nD τ).loc main_arg2) : S16x1024x1024.Idx → EReal) (ix3 (batch t) r k) := by
  obtain ⟨-, -, ⟨h0, h1, h2⟩, -⟩ := idx_facts t
  unfold iblk
  rw [View.read_apply]
  show (V m c main_v2 : S16x1024x1024.Idx → EReal) _ = _
  rw [V_v]
  refine congrArg _ (idx3_eq _ _ _ _ ?_ ?_ ?_)
  · show win0_2.index t (0 : Fin 3) * 1 + 1 * 0 = t.val; omega
  · show win0_2.index t (1 : Fin 3) * 1024 + 1 * r.val = r.val; omega
  · show win0_2.index t (2 : Fin 3) * 1024 + 1 * k.val = k.val; omega

/-- Point t's block of the re-laid mask is row t of the mask. -/
theorem iblk_mk (c : Dev nD) (t : Fin cfg0.N) (k : Fin 1024) :
    (iblk m c 3 t : Vec Ideal S1x1x1024 .f32) (ix3 (0 : Fin 1) (0 : Fin 1) k)
      = (m ((c : Thread nD τ).loc main_arg3) : S16x1024.Idx → EReal) (ix2 (batch t) k) := by
  obtain ⟨-, -, -, ⟨h0, h1, h2⟩, -⟩ := idx_facts t
  unfold iblk
  rw [View.read_apply]
  show (V m c main_v4 : S16x1x1024.Idx → EReal) _ = _
  rw [V_mk]
  refine (congrArg _ (idx3_eq _ (batch t) (0 : Fin 1) k ?_ ?_ ?_)).trans (relaid_row _ (batch t) (0 : Fin 1) k)
  · show win0_3.index t (0 : Fin 3) * 1 + 1 * 0 = t.val; omega
  · show win0_3.index t (1 : Fin 3) * 1 + 1 * 0 = 0; omega
  · show win0_3.index t (2 : Fin 3) * 1024 + 1 * k.val = k.val; omega

/-- Every point's block of W is all of W. -/
theorem iblk_W (c : Dev nD) (t : Fin cfg0.N) (r k : Fin 1024) :
    (iblk m c 4 t : Vec Ideal S1024x1024 .bf16) (ix2 r k)
      = (m ((c : Thread nD τ).loc main_arg4) : S1024x1024.Idx → EReal) (ix2 r k) := by
  obtain ⟨-, -, -, -, ⟨h0, h1⟩, -⟩ := idx_facts t
  unfold iblk
  rw [View.read_apply]
  show (V m c main_v3 : S1024x1024.Idx → EReal) _ = _
  rw [V_W]
  refine congrArg _ (idx2_eq _ _ _ ?_ ?_)
  · show win0_4.index t (0 : Fin 2) * 1024 + 1 * r.val = r.val; omega
  · show win0_4.index t (1 : Fin 2) * 1024 + 1 * k.val = k.val; omega

/-! ## What point t writes back is block t of `G` -/

/-- The body's result at point t, at a block index, is `G` at the array index under it. -/
theorem point_eq (c : Dev nD) (t : Fin cfg0.N) (y : S1x1024x1024.Idx) (p : S16x1024x1024.Idx)
    (h0 : (p 0).val = t.val) (h1 : (p 1).val = (y 1).val) (h2 : (p 2).val = (y 2).val) :
    out0_5 (iblk m c 0 t) (iblk m c 1 t) (iblk m c 2 t) (iblk m c 3 t) (iblk m c 4 t) y = G m c p := by
  obtain ⟨u, i, d, rfl⟩ : ∃ (u : Fin 1) (i d : Fin 1024), y = ix3 u i d := ⟨y 0, y 1, y 2, eq_ix3 y⟩
  obtain rfl : p = ix3 (batch t) i d := idx3_eq _ _ _ _ h0 h1 h2
  refine (out_block (iblk m c 0 t) (iblk m c 1 t) (iblk m c 2 t) (iblk m c 3 t) (iblk m c 4 t) u i d).trans ?_
  have e0 : (fun r k => (iblk m c 0 t : Vec Ideal S1x1024x1024 .bf16) (ix3 (0 : Fin 1) r k))
      = slab (m ((c : Thread nD τ).loc main_arg0)) (batch t) := funext fun r => funext fun k => iblk_x m c t r k
  have e1 : (fun r k => (iblk m c 1 t : Vec Ideal S1x1024x1024 .bf16) (ix3 (0 : Fin 1) r k))
      = slab (m ((c : Thread nD τ).loc main_arg1)) (batch t) := funext fun r => funext fun k => iblk_y m c t r k
  have e2 : (fun r k => (iblk m c 2 t : Vec Ideal S1x1024x1024 .bf16) (ix3 (0 : Fin 1) r k))
      = slab (m ((c : Thread nD τ).loc main_arg2)) (batch t) := funext fun r => funext fun k => iblk_v m c t r k
  have e3 : (fun k => (iblk m c 3 t : Vec Ideal S1x1x1024 .f32) (ix3 (0 : Fin 1) (0 : Fin 1) k))
      = rowOf (m ((c : Thread nD τ).loc main_arg3)) (batch t) := funext fun k => iblk_mk m c t k
  have e4 : (fun r k => (iblk m c 4 t : Vec Ideal S1024x1024 .bf16) (ix2 r k))
      = mat (m ((c : Thread nD τ).loc main_arg4)) := funext fun r => funext fun k => iblk_W m c t r k
  rw [e0, e1, e2, e3, e4]
  rfl

theorem flushed_eq (c : Dev nD) (t : Fin cfg0.N) :
    (dats m 0 c).flushed 5 t = ((cfg0.win 5).blk t).view.read (Elt Ideal) (G m c) := by
  rw [flushed5]
  obtain ⟨-, -, -, -, -, h0, h1, h2⟩ := idx_facts t
  funext y
  have hy0 : (y 0).val < 1 := (y 0).isLt
  show out0_5 (iblk m c 0 t) (iblk m c 1 t) (iblk m c 2 t) (iblk m c 3 t) (iblk m c 4 t) ((cfg0.win 5).xinj (grid0.coords t) y)
      = G m c (((cfg0.win 5).blk t).view.emb y)
  refine point_eq m c t _ _ ?_ ?_ ?_
  · show win0_5.index t (0 : Fin 3) * 1 + 1 * (y 0).val = t.val; omega
  · show win0_5.index t (1 : Fin 3) * 1024 + 1 * (y 1).val = (y 1).val; omega
  · show win0_5.index t (2 : Fin 3) * 1024 + 1 * (y 2).val = (y 2).val; omega

/-! ## The sixteen blocks tile the result array -/

theorem cover (c : Dev nD) (i : S16x1024x1024.Idx) :
    ∃ t : Fin cfg0.N, (cfg0.win 5).flush t = true ∧ i ∈ ((cfg0.win 5).blk t).view.set := by
  have hi0 : (i 0).val < 16 := (i 0).isLt
  have hi1 : (i 1).val < 1024 := (i 1).isLt
  have hi2 : (i 2).val < 1024 := (i 2).isLt
  obtain ⟨t, ht⟩ : ∃ t : Fin cfg0.N, t.val = (i 0).val := ⟨⟨(i 0).val, Nat.lt_of_lt_of_eq hi0 N_0.symm⟩, rfl⟩
  obtain ⟨-, -, -, -, -, h0, h1, h2⟩ := idx_facts t
  refine ⟨t, flush0_5 t, ?_⟩
  show i ∈ ((View.whole main_v5).slice (win0_5.rect t)).set
  rw [View.set_slice_whole, Rect.mem_set_unit]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 1024 ≤ (i 1).val ∧ (i 1).val < win0_5.index t (1 : Fin 3) * 1024 + 1024; omega
  | ⟨2, _⟩ => show win0_5.index t (2 : Fin 3) * 1024 ≤ (i 2).val ∧ (i 2).val < win0_5.index t (2 : Fin 3) * 1024 + 1024; omega

/-- The result array after the run is `G` of the arguments. -/
theorem final (c : Dev nD) : (dats m 0 c).arrAt 5 cfg0.N = G m c :=
  (dats m 0 c).arrAt_eq_of_cover 5 (G m c) (fun t _ => flushed_eq m c t) (cover c)

/-! ## The run, read -/

theorem run : θ_run defs (onTc (τ := τ) (main (F := Ideal))) ⟨m, fun _ => 0, ρ⟩ fun r => ∀ c : Dev nD,
      r.2.mem ((c : Thread nD τ).loc main_v5) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (run_blocks m ρ)

end Cert.KernelIdeal.Whole

end
-- ==== Proof.lean ====
/-
  Column-softmax attention, batch by batch: the tiled kernel against its plain reference, on the extended reals.

  Both programs compute, for each of 16 batches, with x, y, v of shape [1024, 1024], a mask row of 1024 weights and a
  shared W of shape [1024, 1024]:
      sx = max (x · W, 0),  sy = max (y · W, 0),  s = sx · syᵀ,
      e[i, j] = exp (s[i, j] - max_i s[i, j]) · mask[j],
      out = (e[·, j] / (Σ_i e[i, j] + ε))_j · v          (a softmax down each column j, over the queries i).
  The kernel does one batch per grid point on blocks it is handed (W whole; the inputs narrowed to bf16, which changes
  nothing on the extended reals), with products into zero accumulators and reductions down the rows; the reference
  does all batches at once with batched contractions and reductions over the query axis. Read at an index, every stage
  of either program is the same sum, fold of max, exponential or quotient of the same entries of the arguments, with the
  same three float words (zero, -∞, and the f32 nearest 1e-10) on both sides; no law beyond reading each operation at an
  index is used, and the inputs' finiteness is never needed.

  The modules: Spec (the function `whole` of the five arguments), RefSide (the reference's last stage is `whole`),
  KerStages and KerValue (the kernel body's value at an index is `out` of its loaded blocks), Whole (point t writes block t
  of `whole`, the blocks tile the result array, the kernel's run ends with the result at `whole`). Here: the three
  frames, the (empty) idealization ledger, and the two runs side by side.
-/
import proofs.«128073_j64209761075496_1_alg».proof.Defs
import proofs.«128073_j64209761075496_1_alg».proof.Proof.Gen.Kernel
import proofs.«128073_j64209761075496_1_alg».proof.Proof.Gen.Kernel.Skeleton
import proofs.«128073_j64209761075496_1_alg».proof.Proof.Gen.Kernel.Launch
import proofs.«128073_j64209761075496_1_alg».proof.Proof.Gen.Kernel.Points
import proofs.«128073_j64209761075496_1_alg».proof.Proof.Gen.Kernel.Frame
import proofs.«128073_j64209761075496_1_alg».proof.Proof.Gen.KernelIdeal
import proofs.«128073_j64209761075496_1_alg».proof.Proof.Gen.KernelIdeal.Skeleton
import proofs.«128073_j64209761075496_1_alg».proof.Proof.Gen.KernelIdeal.Launch
import proofs.«128073_j64209761075496_1_alg».proof.Proof.Gen.KernelIdeal.Points
import proofs.«128073_j64209761075496_1_alg».proof.Proof.Gen.KernelIdeal.Frame
import proofs.«128073_j64209761075496_1_alg».proof.Proof.Gen.ReferenceIdeal
import proofs.«128073_j64209761075496_1_alg».proof.Proof.Gen.Pre_finite_inputs
import proofs.«128073_j64209761075496_1_alg».proof.Proof.Gen.KernelIdeal.Value
import proofs.«128073_j64209761075496_1_alg».proof.Proof.Gen.ReferenceIdeal.Run
import proofs.«128073_j64209761075496_1_alg».proof.Proof.Gen.ReferenceIdeal.Read
import proofs.«128073_j64209761075496_1_alg».proof.Proof.RefSide
import proofs.«128073_j64209761075496_1_alg».proof.Proof.Whole
import Idealize.ShloMosaic.Adequacy
import Idealize.ShloMosaic.Init

noncomputable section

namespace Cert.Proof

open Idealize.ShloMosaic Idealize.ShloMosaic.TcCoe Idealize.SL.Sem

/-- The word-level kernel terminates without a fault and leaves its arguments as they were. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- So does the idealized reference: its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing: there is nothing to preserve. -/
theorem preserves : Cert.preserves_Kernel_KernelIdeal := trivial

/-- From memories agreeing on the five arguments, the idealized kernel ends with its result at `whole` of its arguments,
    and the idealized reference with its result at its last stage, which is `whole` of the same arguments. -/
theorem algebraic : Cert.algebraic_KernelIdeal_ReferenceIdeal := by
  intro m ρ m' ρ' _ hagree
  refine ⟨fun c => Cert.KernelIdeal.Whole.G m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v19_eq, Cert.RefSide.ref_eq, (hagree c).1, (hagree c).2.1, (hagree c).2.2.1,
    (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
